-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x160x640 : Shape := ⟨3, ![4, 160, 640]⟩
abbrev S4x80x640 : Shape := ⟨3, ![4, 80, 640]⟩
abbrev S640x1024 : Shape := ⟨2, ![640, 1024]⟩
abbrev S1024 : Shape := ⟨1, ![1024]⟩
abbrev S1024x1024 : Shape := ⟨2, ![1024, 1024]⟩
abbrev S_ : Shape := ⟨0, ![]⟩

class Facts : Prop where
  bcast_S_S4x160x640 : S_.BroadcastsInDim S4x160x640 (![] : Fin 0 → Fin S4x160x640.rank)
  reducesTo_S4x160x640_S_d0_1_2 : S4x160x640.ReducesTo [0, 1, 2] S_
  h_S_ : 0 < S_.numel
  bcast_S_S4x80x640 : S_.BroadcastsInDim S4x80x640 (![] : Fin 0 → Fin S4x80x640.rank)
  reducesTo_S4x80x640_S_d0_1_2 : S4x80x640.ReducesTo [0, 1, 2] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_arg5 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x160x640 .f32) (main_arg1 : FVec F S4x80x640 .f32) (main_arg2 : FVec F S640x1024 .f32) (main_arg3 : FVec F S1024 .f32) (main_arg4 : FVec F S1024x1024 .f32) (main_arg5 : FVec F S1024 .f32) : IVec S_ 1 :=
  let main_v0 : FVec F S4x160x640 .f32 := Host.absf main_arg0
  let main_cst : FVec F S_ .f32 := constant S_ .f32 0x7F800000#32
  let main_v1 : FVec F S4x160x640 .f32 := broadcastInDim S4x160x640 ![] bcast_S_S4x160x640 main_cst
  let main_v2 : IVec S4x160x640 1 := cmpf .olt main_v0 main_v1
  let main_c : IVec S_ 1 := constantI S_ 1 1#1
  let main_v3 : IVec S_ 1 := (fun x v => Host.reduce IntOp.andi x v reducesTo_S4x160x640_S_d0_1_2 h_S_) main_v2 main_c
  let main_v4 : FVec F S4x80x640 .f32 := Host.absf main_arg1
  let main_cst_0 : FVec F S_ .f32 := constant S_ .f32 0x7F800000#32
  let main_v5 : FVec F S4x80x640 .f32 := broadcastInDim S4x80x640 ![] bcast_S_S4x80x640 main_cst_0
  let main_v6 : IVec S4x80x640 1 := cmpf .olt main_v4 main_v5
  let main_c_1 : IVec S_ 1 := constantI S_ 1 1#1
  let main_v7 : IVec S_ 1 := (fun x v => Host.reduce IntOp.andi x v reducesTo_S4x80x640_S_d0_1_2 h_S_) main_v6 main_c_1
  let main_v8 : IVec S_ 1 := andi main_v3 main_v7
  let main_v9 : FVec F S640x1024 .f32 := Host.absf main_arg2
  let main_cst_2 : FVec F S_ .f32 := constant S_ .f32 0x7F800000#32
  let main_v10 : FVec F S640x1024 .f32 := broadcastInDim S640x1024 ![] bcast_S_S640x1024 main_cst_2
  let main_v11 : IVec S640x1024 1 := cmpf .olt main_v9 main_v10
  let main_c_3 : IVec S_ 1 := constantI S_ 1 1#1
  let main_v12 : IVec S_ 1 := (fun x v => Host.reduce IntOp.andi x v reducesTo_S640x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S4x160x640 : Shape := ⟨3, ![4, 160, 640]⟩
abbrev S4x80x640 : Shape := ⟨3, ![4, 80, 640]⟩
abbrev S640x1024 : Shape := ⟨2, ![640, 1024]⟩
abbrev S1024 : Shape := ⟨1, ![1024]⟩
abbrev S1024x1024 : Shape := ⟨2, ![1024, 1024]⟩
abbrev S1x1024 : Shape := ⟨2, ![1, 1024]⟩
abbrev S4x160x80x1024 : Shape := ⟨4, ![4, 160, 80, 1024]⟩
abbrev S1x8x640 : Shape := ⟨3, ![1, 8, 640]⟩
abbrev S1x80x640 : Shape := ⟨3, ![1, 80, 640]⟩
abbrev S1x8x80x1024 : Shape := ⟨4, ![1, 8, 80, 1024]⟩
abbrev S8x640 : Shape := ⟨2, ![8, 640]⟩
abbrev S80x640 : Shape := ⟨2, ![80, 640]⟩
abbrev S8x1x640 : Shape := ⟨3, ![8, 1, 640]⟩
abbrev S8x80x640 : Shape := ⟨3, ![8, 80, 640]⟩
abbrev S640x640 : Shape := ⟨2, ![640, 640]⟩
abbrev S640 : Shape := ⟨1, ![640]⟩
abbrev S640x1 : Shape := ⟨2, ![640, 1]⟩
abbrev S8x80x1024 : Shape := ⟨3, ![8, 80, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4x160x640, .f32⟩
  | .hbm, ⟨1, _⟩ => ⟨S4x80x640, .f32⟩
  | .hbm, ⟨2, _⟩ => ⟨S640x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S640x1024, .bf16⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S4x160x80x1024, .f32⟩
  | .local _ .vmem, ⟨0, _⟩ => ⟨S1x8x640, .f32⟩
  | .local _ .vmem, ⟨1, _⟩ => ⟨S1x8x640, .f32⟩
  | .local _ .vmem, ⟨2, _⟩ => ⟨S1x80x640, .f32⟩
  | .local _ .vmem, ⟨3, _⟩ => ⟨S1x80x640, .f32⟩
  | .local _ .vmem, ⟨4, _⟩ => ⟨S640x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1x8x80x1024, .f32⟩
  | .local _ .vmem, ⟨9, _⟩ => ⟨S1x8x80x1024, .f32⟩
  | _, _ => ⟨S4x160x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x80x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x80x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S1024_S1x1024 : S1024.ShapeCasts S1x1024
  inb_S1x8x640_S1x8x640_0_0_0 : ∀ a, (![0, 0, 0] : Fin 3 → Nat) a + S1x8x640.size a ≤ S1x8x640.size a
  h_S1x8x640 : 0 < S1x8x640.numel
  shapeCasts_S1x8x640_S8x640 : S1x8x640.ShapeCasts S8x640
  inb_S1x80x640_S1x80x640_0_0_0 : ∀ a, (![0, 0, 0] : Fin 3 → Nat) a + S1x80x640.size a ≤ S1x80x640.size a
  h_S1x80x640 : 0 < S1x80x640.numel
  shapeCasts_S1x80x640_S80x640 : S1x80x640.ShapeCasts S80x640
  shapeCasts_S8x640_S8x1x640 : S8x640.ShapeCasts S8x1x640
  shapeCasts_S80x640_S1x80x640 : S80x640.ShapeCasts S1x80x640
  broadcasts_S8x1x640_S8x80x640 : S8x1x640.Broadcasts S8x80x640
  broadcasts_S1x80x640_S8x80x640 : S1x80x640.Broadcasts S8x80x640
  shapeCasts_S8x80x640_S640x640 : S8x80x640.ShapeCasts S640x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S640x1024 : S1x1024.Broadcasts S640x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S640x1024_S640 : S640x1024.Reduces [1] S640
  shapeCasts_S640_S640x1 : S640.ShapeCasts S640x1
  broadcasts_S640x1_S640x1024 : S640x1.Broadcasts S640x1024
  shapeCasts_S640x1024_S8x80x1024 : S640x1024.ShapeCasts S8x80x1024
  inb_S1x8x80x1024_S1x8x80x1024_0_0_0_0 : ∀ a, (![0, 0, 0, 0] : Fin 4 → Nat) a + S1x8x80x1024.size a ≤ S1x8x80x1024.size a
  h_S1x8x80x1024 : 0 < S1x8x80x1024.numel
  shapeCasts_S1x8x80x1024_S8x80x1024 : S1x8x80x1024.ShapeCasts S8x80x1024
  shapeCasts_S8x80x1024_S1x8x80x1024 : S8x80x1024.ShapeCasts S1x8x80x1024
  dot_S640x640_S640x1024_S640x1024_1_0_0_1_n_n_wf : DotDims.WF S640x640 S640x1024 S640x1024 [1] [0] [0] [1] [] []
  dot_S640x1024_S1024x1024_S640x1024_1_0_0_1_n_n_wf : DotDims.WF S640x1024 S1024x1024 S640x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x640.size a ≤ S4x160x640.size a
  hwx0_0 : ∀ i : grid0.Coords, EltTy.bits .f32 = 32 ∨ (Rect.block (s := S4x160x640) S1x8x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x80x640.size a ≤ S4x80x640.size a
  hwx0_1 : ∀ i : grid0.Coords, EltTy.bits .f32 = 32 ∨ (Rect.block (s := S4x80x640) S1x80x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1024.size a ≤ S640x1024.size a
  hwx0_2 : ∀ i : grid0.Coords, EltTy.bits .bf16 = 32 ∨ (Rect.block (s := S640x1024) S640x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x80x1024.size a ≤ S4x160x80x1024.size a
  hwx0_6 : ∀ i : grid0.Coords, EltTy.bits .f32 = 32 ∨ (Rect.block (s := S4x160x80x1024) S1x8x80x1024.size (cc0_transform_6 i) (hinb0_6 i)).WholeWords (EltTy.packing .f32)

variable [Facts₀]

def dot_S640x640_S640x1024_S640x1024_1_0_0_1_n_n : DotDims S640x640 S640x1024 S640x1024 where
  lhsContracting := [1]
  rhsContracting := [0]
  lhsNonContracting := [0]
  rhsNonContracting := [1]
  lhsBatch := []
  rhsBatch := []
  wf := dot_S640x640_S640x1024_S640x1024_1_0_0_1_n_n_wf
def dot_S640x1024_S1024x1024_S640x1024_1_0_0_1_n_n : DotDims S640x1024 S1024x1024 S640x1024 where
  lhsContracting := [1]
  rhsContracting := [0]
  lhsNonContracting := [0]
  rhsNonContracting := [1]
  lhsBatch := []
  rhsBatch := []
  wf := dot_S640x1024_S1024x1024_S640x1024_1_0_0_1_n_n_wf

abbrev win0_0 : Pipeline.Window sig grid0 :=
  Pipeline.Window.ofSpec (Memref.whole main_arg0) S1x8x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x80x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S640x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x8x80x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x160x640 : Shape := ⟨3, ![4, 160, 640]⟩
abbrev S4x80x640 : Shape := ⟨3, ![4, 80, 640]⟩
abbrev S640x1024 : Shape := ⟨2, ![640, 1024]⟩
abbrev S1024 : Shape := ⟨1, ![1024]⟩
abbrev S1024x1024 : Shape := ⟨2, ![1024, 1024]⟩
abbrev S4x160x1x640 : Shape := ⟨4, ![4, 160, 1, 640]⟩
abbrev S4x1x80x640 : Shape := ⟨4, ![4, 1, 80, 640]⟩
abbrev S4x160x80x640 : Shape := ⟨4, ![4, 160, 80, 640]⟩
abbrev S4x160x80x1024 : Shape := ⟨4, ![4, 160, 80, 1024]⟩
abbrev S1x1x1x1024 : Shape := ⟨4, ![1, 1, 1, 1024]⟩
abbrev S_ : Shape := ⟨0, ![]⟩
abbrev S4x160x80 : Shape := ⟨3, ![4, 160, 80]⟩
abbrev S4x160x80x1 : Shape := ⟨4, ![4, 160, 80, 1]⟩

abbrev nBuf : Space → Nat
  | .hbm => 37
  | .vmem => 0
  | .smem => 0
  | _ => 0

abbrev bufTy : (tb : Table) → Fin (tcTables nBuf tb) → BufTy
  | .hbm, ⟨0, _⟩ => ⟨S4x160x640, .f32⟩
  | .hbm, ⟨1, _⟩ => ⟨S4x80x640, .f32⟩
  | .hbm, ⟨2, _⟩ => ⟨S640x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S4x160x1x640, .f32⟩
  | .hbm, ⟨7, _⟩ => ⟨S4x1x80x640, .f32⟩
  | .hbm, ⟨8, _⟩ => ⟨S4x160x80x640, .f32⟩
  | .hbm, ⟨9, _⟩ => ⟨S4x160x80x640, .f32⟩
  | .hbm, ⟨10, _⟩ => ⟨S4x160x80x640, .f32⟩
  | .hbm, ⟨11, _⟩ => ⟨S4x160x80x1024, .f32⟩
  | .hbm, ⟨12, _⟩ => ⟨S1x1x1x1024, .f32⟩
  | .hbm, ⟨13, _⟩ => ⟨S4x160x80x1024, .f32⟩
  | .hbm, ⟨14, _⟩ => ⟨S4x160x80x1024, .f32⟩
  | .hbm, ⟨15, _⟩ => ⟨S_, .f32⟩
  | .hbm, ⟨16, _⟩ => ⟨S4x160x80x1024, .f32⟩
  | .hbm, ⟨17, _⟩ => ⟨S4x160x80x1024, .f32⟩
  | .hbm, ⟨18, _⟩ => ⟨S4x160x80x1024, .f32⟩
  | .hbm, ⟨19, _⟩ => ⟨S1x1x1x1024, .f32⟩
  | .hbm, ⟨20, _⟩ => ⟨S4x160x80x1024, .f32⟩
  | .hbm, ⟨21, _⟩ => ⟨S4x160x80x1024, .f32⟩
  | .hbm, ⟨22, _⟩ => ⟨S_, .f32⟩
  | .hbm, ⟨23, _⟩ => ⟨S4x160x80, .f32⟩
  | .hbm, ⟨24, _⟩ => ⟨S_, .f32⟩
  | .hbm, ⟨25, _⟩ => ⟨S4x160x80, .f32⟩
  | .hbm, ⟨26, _⟩ => ⟨S4x160x80, .f32⟩
  | .hbm, ⟨27, _⟩ => ⟨S4x160x80x1, .f32⟩
  | .hbm, ⟨28, _⟩ => ⟨S4x160x80x1024, .f32⟩
  | .hbm, ⟨29, _⟩ => ⟨S4x160x80x1024, .f32⟩
  | .hbm, ⟨30, _⟩ => ⟨S4x160x80x1024, .f32⟩
  | .hbm, ⟨31, _⟩ => ⟨S_, .f32⟩
  | .hbm, ⟨32, _⟩ => ⟨S4x160x80, .f32⟩
  | .hbm, ⟨33, _⟩ => ⟨S4x160x80x1, .f32⟩
  | .hbm, ⟨34, _⟩ => ⟨S4x160x80x1, .f32⟩
  | .hbm, ⟨35, _⟩ => ⟨S4x160x80x1024, .f32⟩
  | .hbm, ⟨36, _⟩ => ⟨S4x160x80x1024, .f32⟩
  | _, _ => ⟨S4x160x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call1_cst : Ref sig .tc := ⟨.hbm, 22, rfl⟩
abbrev main_call1_v0 : Ref sig .tc := ⟨.hbm, 23, rfl⟩
abbrev main_call1_cst_0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_cst_1 : Ref sig .tc := ⟨.hbm, 31, rfl⟩
abbrev main_call1_v7 : Ref sig .tc := ⟨.hbm, 32, rfl⟩
abbrev main_call1_v8 : Ref sig .tc := ⟨.hbm, 33, rfl⟩
abbrev main_call1_v9 : Ref sig .tc := ⟨.hbm, 34, rfl⟩
abbrev main_call1_v10 : Ref sig .tc := ⟨.hbm, 35, rfl⟩
abbrev main_v14 : Ref sig .tc := ⟨.hbm, 36, rfl⟩

abbrev nD : Nat := 1
abbrev τ : Topo := Topo.v7x

variable {F : FTy → Type} [FloatOps F]

class Facts₀ : Prop where
  bcast_S4x160x640_S4x160x1x640_0_1_3 : S4x160x640.BroadcastsInDim S4x160x1x640 (![0, 1, 3] : Fin 3 → Fin S4x160x1x640.rank)
  bcast_S4x80x640_S4x1x80x640_0_2_3 : S4x80x640.BroadcastsInDim S4x1x80x640 (![0, 2, 3] : Fin 3 → Fin S4x1x80x640.rank)
  bcast_S4x160x1x640_S4x160x80x640_0_1_2_3 : S4x160x1x640.BroadcastsInDim S4x160x80x640 (![0, 1, 2, 3] : Fin 4 → Fin S4x160x80x640.rank)
  bcast_S4x1x80x640_S4x160x80x640_0_1_2_3 : S4x1x80x640.BroadcastsInDim S4x160x80x640 (![0, 1, 2, 3] : Fin 4 → Fin S4x160x80x640.rank)
  bcast_S1024_S1x1x1x1024_3 : S1024.BroadcastsInDim S1x1x1x1024 (![3] : Fin 1 → Fin S1x1x1x1024.rank)
  bcast_S1x1x1x1024_S4x160x80x1024_0_1_2_3 : S1x1x1x1024.BroadcastsInDim S4x160x80x1024 (![0, 1, 2, 3] : Fin 4 → Fin S4x160x80x1024.rank)
  bcast_S_S4x160x80x1024 : S_.BroadcastsInDim S4x160x80x1024 (![] : Fin 0 → Fin S4x160x80x1024.rank)
  reducesTo_S4x160x80x1024_S4x160x80_d3 : S4x160x80x1024.ReducesTo [3] S4x160x80
  h_S_ : 0 < S_.numel
  bcast_S_S4x160x80 : S_.BroadcastsInDim S4x160x80 (![] : Fin 0 → Fin S4x160x80.rank)
  bcast_S4x160x80_S4x160x80x1_0_1_2 : S4x160x80.BroadcastsInDim S4x160x80x1 (![0, 1, 2] : Fin 3 → Fin S4x160x80x1.rank)
  bcast_S4x160x80x1_S4x160x80x1024_0_1_2_3 : S4x160x80x1.BroadcastsInDim S4x160x80x1024 (![0, 1, 2, 3] : Fin 4 → Fin S4x160x80x1024.rank)
  dot_S4x160x80x640_S640x1024_S4x160x80x1024_3_0_012_1_n_n_wf : DotDims.WF S4x160x80x640 S640x1024 S4x160x80x1024 [3] [0] [0, 1, 2] [1] [] []
  dot_S4x160x80x1024_S1024x1024_S4x160x80x1024_3_0_012_1_n_n_wf : DotDims.WF S4x160x80x1024 S1024x1024 S4x160x80x1024 [3] [0] [0, 1, 2] [1] [] []

variable [Facts₀]

def dot_S4x160x80x640_S640x1024_S4x160x80x1024_3_0_012_1_n_n : DotDims S4x160x80x640 S640x1024 S4x160x80x1024 where
  lhsContracting := [3]
  rhsContracting := [0]
  lhsNonContracting := [0, 1, 2]
  rhsNonContracting := [1]
  lhsBatch := []
  rhsBatch := []
  wf := dot_S4x160x80x640_S640x1024_S4x160x80x1024_3_0_012_1_n_n_wf
def dot_S4x160x80x1024_S1024x1024_S4x160x80x1024_3_0_012_1_n_n : DotDims S4x160x80x1024 S1024x1024 S4x160x80x1024 where
  lhsContracting := [3]
  rhsContracting := [0]
  lhsNonContracting := [0, 1, 2]
  rhsNonContracting := [1]
  lhsBatch := []
  rhsBatch := []
  wf := dot_S4x160x80x1024_S1024x1024_S4x160x80x1024_3_0_012_1_n_n_wf

class Facts : Prop extends Facts₀ where

variable [Facts]
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.LibColumnCast.lean ====
/-
  A vector recast as a one-column matrix, read at an index. A row sum kept as a column (a sum over the last axis with
  the axis kept) is stored by recasting the vector of `a` sums to shape `a × 1`; row-major order puts entry `p` of the
  vector at `(p, 0)`.
-/
import Idealize.ShloMosaic.Lib.ValueIdx
import Idealize.ShloMosaic.Lib.Pipeline.Value

namespace Cert.LibColumnCast

open Idealize.ShloMosaic Idealize.ShloMosaic.ValueIdx

/-- A vector of `a` entries recast as an `a × 1` column reads, at `(p, z)`, the vector's entry `p`, whatever the
    unit coordinate `z`: both sit at position `p` in row-major order. Generic in the extent and the element type. -/
theorem column_cast {a : ℕ} {α : Type} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Cert.LibColumnCast
-- ==== Proof.LibRowSoftmax.lean ====
/-
  ROW-WISE SOFTMAX ON A BLOCK, AS A DEVICE BODY SPELLS IT, READ AT AN INDEX — generic in the block's extents.

  A body that normalises each row of an `a × b` block takes the row maximum, keeps it as an `a × 1` column, spreads
  the column back over the `b` columns, subtracts, exponentiates, takes the row sums the same way and divides. Read at
  `(p, q)` on the extended reals this is `exp (B (p, q) - M) / ∑ k, exp (B (p, k) - M)` with `M` the fold of `max`
  over row `p` from the accumulator's value. Also here: the recasts between an `a × b` block and the same block under
  two leading unit axes, which keep every entry where it is.
-/
import Idealize.ShloMosaic.PureOps.Ideal.Laws
import Idealize.ShloMosaic.Lib.ValueIdx
import Idealize.ShloMosaic.Lib.Pipeline.Value
import proofs.«160785_j25520695673520_2_alg».proof.Proof.LibColumnCast
import proofs.«160785_j25520695673520_2_alg».proof.Proof.LibMatOps

noncomputable section

open scoped BigOperators

namespace Cert.LibRowSoftmax

open Idealize.ShloMosaic Idealize.ShloMosaic.ValueIdx

/-- A `1 × 1 × a × b` array recast as `a × b` reads, at `(p, q)`, the entry `(0, 0, p, q)`. -/
theorem cast_drop2 {a b : ℕ} {α : Type} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    simp)

/-- An `a × b` array recast as `1 × 1 × a × b` reads, at `(0, 0, p, q)`, the entry `(p, q)`. -/
theorem cast_add2 {a b : ℕ} {α : Type} (x : (⟨2, ![a, b]⟩ : Shape).Idx → α)
    (h : (⟨2, ![a, b]⟩ : Shape).ShapeCasts ⟨4, ![1, 1, a, b]⟩) (p : Fin a) (q : Fin b) :
    shapeCast ⟨4, ![1, 1, a, b]⟩ x h (ix4 (0 : Fin 1) (0 : Fin 1) p q) = x (ix2 p q) :=
  shapeCast_apply x h _ _ (by
    rw [Shape.rowMajor_val_two, Shape.rowMajor_val_four]
    show p.val * b + q.val = ((0 * 1 + 0) * a + p.val) * b + q.val
    simp)

/-- Row `p` with the column coordinate `k` put back is the index `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- The row maximum kept as a column and spread back over the columns reads, at `(p, q)`, the fold of `max` over
    row `p` from the accumulator's value. -/
theorem rowMax_keepdims {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .maximumf [1] ⟨1, ![a]⟩ v acc h hφ hacc) hc) hb (ix2 p q)
      = (Finset.univ : Finset (Fin b)).fold max (Ideal.ofBits φ acc) (fun k => v (ix2 p k)) := by
  rw [Cert.MatOps.broadcastTo_a1_ab_apply, Cert.LibColumnCast.column_cast]
  refine (Ideal.multiReduction_maximumf_single v acc h hφ hacc (ix1 p)).trans ?_
  show (Finset.univ : Finset (Fin b)).fold max (Ideal.ofBits φ acc) (v ∘ h.lift (ix1 p)) = _
  congr 1
  funext k
  exact congrArg v (lift_row h p k)

/-- The row sum kept as a column and spread back over the columns reads, at `(p, q)`, the sum over row `p`. -/
theorem rowSum_keepdims {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ v acc h hφ hacc) hc) hb (ix2 p q)
      = ∑ k : Fin b, v (ix2 p k) := by
  rw [Cert.MatOps.broadcastTo_a1_ab_apply, Cert.LibColumnCast.column_cast]
  refine (Ideal.multiReduction_add_single v acc h hφ hacc (ix1 p)).trans ?_
  show ∑ k : Fin b, v (h.lift (ix1 p) k) = _
  refine Finset.sum_congr rfl fun k _ => ?_
  exact congrArg v (lift_row h p k)

/-- THE BODY'S SOFTMAX AT AN INDEX. For an `a × b` block `B` of single-precision values: the exponential of the block
    less its spread row maximum, divided by the spread row sum of that exponential, reads at `(p, q)`
    `exp (B (p, q) - M) / ∑ k, exp (B (p, k) - M)`, `M` the fold of `max` over row `p` from the pattern `accM`. -/
theorem softmax_keepdims {a b : ℕ} (B : FVec Ideal ⟨2, ![a, b]⟩ .f32) (accM accS : BitVec 32)
    (h : (⟨2, ![a, b]⟩ : Shape).Reduces [1] ⟨1, ![a]⟩) (hφ : FKind.Formats .f32)
    (hM : accM = FKind.maximumf.neutral .f32 hφ) (hS : accS = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    divf
        (exp (subf B (broadcastTo ⟨2, ![a, b]⟩ (shapeCast ⟨2, ![a, 1]⟩ (multiReduction .maximumf [1] ⟨1, ![a]⟩ B accM h hφ hM) hc) hb)))
        (broadcastTo ⟨2, ![a, b]⟩ (shapeCast ⟨2, ![a, 1]⟩ (multiReduction .add [1] ⟨1, ![a]⟩
          (exp (subf B (broadcastTo ⟨2, ![a, b]⟩ (shapeCast ⟨2, ![a, 1]⟩ (multiReduction .maximumf [1] ⟨1, ![a]⟩ B accM h hφ hM) hc) hb)))
          accS h hφ hS) hc) hb)
        (ix2 p q)
      = Ideal.div
          (Ideal.exp (B (ix2 p q) - (Finset.univ : Finset (Fin b)).fold max (Ideal.ofBits .f32 accM) (fun k => B (ix2 p k))))
          (∑ k : Fin b, Ideal.exp (B (ix2 p k) - (Finset.univ : Finset (Fin b)).fold max (Ideal.ofBits .f32 accM) (fun k => B (ix2 p k)))) := by
  have hmax : ∀ k : Fin b,
      broadcastTo ⟨2, ![a, b]⟩ (shapeCast ⟨2, ![a, 1]⟩ (multiReduction .maximumf [1] ⟨1, ![a]⟩ B accM h hφ hM) hc) hb (ix2 p k)
        = (Finset.univ : Finset (Fin b)).fold max (Ideal.ofBits .f32 accM) (fun k => B (ix2 p k)) :=
    fun k => rowMax_keepdims B accM h hφ hM hc hb p k
  refine congrArg₂ Ideal.div ?_ ?_
  · exact congrArg (fun M => Ideal.exp (B (ix2 p q) - M)) (hmax q)
  · refine (rowSum_keepdims _ accS h hφ hS hc hb p q).trans ?_
    refine Finset.sum_congr rfl fun k _ => ?_
    exact congrArg (fun M => Ideal.exp (B (ix2 p k) - M)) (hmax k)

end Cert.LibRowSoftmax

end
-- ==== Proof.LibLogSoftmaxRow.lean ====
/-
  THE LOG-SOFTMAX OF A ROW, ON THE EXTENDED REALS — generic in the row's length.

  For a row of scores `L` the log-softmax at `v` is `L v - M - log (∑ k, exp (L k - M))`, with `M` the fold of `max` over
  the row from a starting value `bot` (the row's largest score when `bot` is minus infinity). Stated with the starting
  value kept as a parameter, so that a program's own starting word is never evaluated; two small facts let a
  program's extra steps be dropped: a further maximum against the starting value, and a sum started from the word of
  zero.
-/
import Idealize.ShloMosaic.PureOps.Ideal.Laws

noncomputable section

open scoped BigOperators

namespace Cert.LibLogSoftmaxRow

open Idealize.ShloMosaic

/-- The largest score of a row, as a fold of `max` from `bot`. -/
def rowMax {V : ℕ} (bot : EReal) (L : Fin V → EReal) : EReal :=
  (Finset.univ : Finset (Fin V)).fold max bot L

/-- The log-softmax of a row of scores, shifted by the row's largest score before exponentiating. -/
def logSoftmax {V : ℕ} (bot : EReal) (L : Fin V → EReal) (v : Fin V) : EReal :=
  (L v - rowMax bot L) - Ideal.log (∑ k : Fin V, Ideal.exp (L k - rowMax bot L))

/-- Taking the maximum with the fold's own starting value once more changes nothing: the fold is already above it. -/
theorem max_rowMax {V : ℕ} (bot : EReal) (L : Fin V → EReal) : max bot (rowMax bot L) = rowMax bot L :=
  max_eq_right (Finset.le_fold_max bot |>.mpr (Or.inl le_rfl))

/-- The single-precision word of zero is the number zero, so adding it on the left changes nothing. -/
theorem zero_word_add (x : EReal) : Ideal.ofBits .f32 0x00000000#32 + x = x := by
  rw [Ideal.ofBits_zero_f32, zero_add]

end Cert.LibLogSoftmaxRow

end
-- ==== Proof.LibDeviceRows.lean ====
/-
  A DENSE LAYER AND A ROW-WISE LOG-SOFTMAX ON A BLOCK, AS A DEVICE BODY SPELLS THEM, READ AT AN INDEX — generic in
  the block's extents.

  A dense layer on an `M × K` block is the matrix product with a `K × C` weight block accumulated into zeros, plus a
  one-row bias spread over the `M` rows: at `(p, q)` it is `∑ k, X (p, k) · W (k, q) + bias (0, q)`.
  A log-softmax of an `a × b` block takes each row's maximum, keeps it as a column and spreads it back, subtracts,
  exponentiates, sums each row the same way, takes the logarithm of the column of sums, spreads that back and
  subtracts again: at `(p, q)` it is the log-softmax of row `p` at `q`.
-/
import Idealize.ShloMosaic.PureOps.Ideal.Laws
import Idealize.ShloMosaic.Lib.ValueIdx
import Idealize.ShloMosaic.Lib.Pipeline.Value
import proofs.«160785_j25520695673520_2_alg».proof.Proof.LibMatOps
import proofs.«160785_j25520695673520_2_alg».proof.Proof.LibColumnCast
import proofs.«160785_j25520695673520_2_alg».proof.Proof.LibRowSoftmax
import proofs.«160785_j25520695673520_2_alg».proof.Proof.LibLogSoftmaxRow

noncomputable section

open scoped BigOperators

namespace Cert.LibDeviceRows

open Idealize.ShloMosaic Idealize.ShloMosaic.ValueIdx

/-- A one-row array `[1, C]` spread over `M` rows reads, at `(p, q)`, the row's entry `q`. -/
theorem broadcastTo_1c_mc_apply {α : Type} {M C : ℕ} (v : (⟨2, ![1, C]⟩ : Shape).Idx → α)
    (h : (⟨2, ![1, C]⟩ : Shape).Broadcasts ⟨2, ![M, C]⟩) (p : Fin M) (q : Fin C) :
    broadcastTo ⟨2, ![M, C]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if C = 1 then 0 else q.val
    split
    · have := q.isLt; omega
    · rfl

/-- THE DENSE LAYER AT AN INDEX: product into zeros plus the spread bias row. -/
theorem dense_apply {M K C : ℕ} (wf : DotDims.WF ⟨2, ![M, K]⟩ ⟨2, ![K, C]⟩ ⟨2, ![M, C]⟩ [1] [0] [0] [1] [] [])
    {φ₁ φ₂ : FTy} (prec : Option ContractPrecision) (X : FVec Ideal ⟨2, ![M, K]⟩ φ₁) (W : FVec Ideal ⟨2, ![K, C]⟩ φ₂)
    (bias : FVec Ideal ⟨2, ![1, C]⟩ .f32) (hb : (⟨2, ![1, C]⟩ : Shape).Broadcasts ⟨2, ![M, C]⟩) (p : Fin M) (q : Fin C) :
    addf (FloatOps.matmul (Cert.MatOps.plainDot M K C wf) prec X W (constant ⟨2, ![M, C]⟩ .f32 0x00000000#32))
        (broadcastTo ⟨2, ![M, C]⟩ bias hb) (ix2 p q)
      = (∑ k : Fin K, X (ix2 p k) * W (ix2 k q)) + bias (ix2 (0 : Fin 1) q) := by
  rw [addf_apply, Cert.MatOps.matmul_plain_apply, broadcastTo_1c_mc_apply]

/-- THE BODY'S LOG-SOFTMAX AT AN INDEX. For an `a × b` block `B` of single-precision values: the block less its spread
    row maximum, less the spread logarithm of the row sums of the exponential of that difference, reads at `(p, q)` the
    log-softmax of row `p` at `q`, the maximum folded from the pattern `accM`. -/
theorem logSoftmax_keepdims {a b : ℕ} (B : FVec Ideal ⟨2, ![a, b]⟩ .f32) (accM accS : BitVec 32)
    (h : (⟨2, ![a, b]⟩ : Shape).Reduces [1] ⟨1, ![a]⟩) (hφ : FKind.Formats .f32)
    (hM : accM = FKind.maximumf.neutral .f32 hφ) (hS : accS = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf
        (subf B (broadcastTo ⟨2, ![a, b]⟩ (shapeCast ⟨2, ![a, 1]⟩ (multiReduction .maximumf [1] ⟨1, ![a]⟩ B accM h hφ hM) hc) hb))
        (broadcastTo ⟨2, ![a, b]⟩ (log (shapeCast ⟨2, ![a, 1]⟩ (multiReduction .add [1] ⟨1, ![a]⟩
          (exp (subf B (broadcastTo ⟨2, ![a, b]⟩ (shapeCast ⟨2, ![a, 1]⟩ (multiReduction .maximumf [1] ⟨1, ![a]⟩ B accM h hφ hM) hc) hb)))
          accS h hφ hS) hc)) hb)
        (ix2 p q)
      = Cert.LibLogSoftmaxRow.logSoftmax (Ideal.ofBits .f32 accM) (fun k : Fin b => B (ix2 p k)) q := by
  have hmax : ∀ k : Fin b,
      broadcastTo ⟨2, ![a, b]⟩ (shapeCast ⟨2, ![a, 1]⟩ (multiReduction .maximumf [1] ⟨1, ![a]⟩ B accM h hφ hM) hc) hb (ix2 p k)
        = Cert.LibLogSoftmaxRow.rowMax (Ideal.ofBits .f32 accM) (fun k : Fin b => B (ix2 p k)) :=
    fun k => Cert.LibRowSoftmax.rowMax_keepdims B accM h hφ hM hc hb p k
  unfold Cert.LibLogSoftmaxRow.logSoftmax
  refine congrArg₂ (fun x y : EReal => x - y) ?_ ?_
  · exact congrArg (fun M : EReal => B (ix2 p q) - M) (hmax q)
  · rw [Cert.MatOps.broadcastTo_a1_ab_apply]
    show Ideal.log (shapeCast ⟨2, ![a, 1]⟩ (multiReduction (F := Ideal) .add [1] ⟨1, ![a]⟩ _ accS h hφ hS) hc (ix2 p (0 : Fin 1))) = _
    rw [Cert.LibColumnCast.column_cast]
    refine congrArg Ideal.log ?_
    refine (Ideal.multiReduction_add_single _ accS h hφ hS (ix1 p)).trans ?_
    refine Finset.sum_congr rfl fun k _ => ?_
    rw [Cert.LibRowSoftmax.lift_row h p k]
    exact congrArg (fun M : EReal => Ideal.exp (B (ix2 p k) - M)) (hmax k)

end Cert.LibDeviceRows

end
-- ==== Proof.PairFfn.lean ====
/-
  PAIRWISE FEED-FORWARD SCORES AND THEIR LOG-SOFTMAX, ON THE EXTENDED REALS.

  For a batch entry `b`, a source position `t` and a target position `s` the input row is the entrywise sum of the
  source encoding at `(b, t)` and the target encoding at `(b, s)`. The row goes through an affine map, a maximum
  with a threshold value, and a second affine map; the resulting scores `L` over the vocabulary are normalised as
  `L v - M - log (∑ k, exp (L k - M))`, with `M` the fold of `max` over the scores from a starting value (the row-wise
  log-softmax of `Cert.LibLogSoftmaxRow`).
  Everything is a finite sum, a maximum, or a function applied entry by entry: no law of arithmetic is used to
  state it, so it is the same expression whether or not the entries are finite.
-/
import Idealize.ShloMosaic.PureOps.Ideal.Laws
import Idealize.ShloMosaic.Lib.ValueIdx
import proofs.«160785_j25520695673520_2_alg».proof.Proof.LibLogSoftmaxRow

noncomputable section

open scoped BigOperators

namespace Cert.PairFfn

open Idealize.ShloMosaic Idealize.ShloMosaic.ValueIdx Cert.LibLogSoftmaxRow

/-- One hidden unit: the row against column `h` of the first weights, plus the bias, cut below at `z`. -/
def hidden {K H : ℕ} (x : Fin K → EReal) (W1 : Fin K → Fin H → EReal) (b1 : Fin H → EReal) (z : EReal) (h : Fin H) : EReal :=
  max (∑ f : Fin K, x f * W1 f h + b1 h) z

/-- One score: the hidden row against column `v` of the second weights, plus the bias. -/
def score {K H V : ℕ} (x : Fin K → EReal) (W1 : Fin K → Fin H → EReal) (b1 : Fin H → EReal) (z : EReal)
    (W2 : Fin H → Fin V → EReal) (b2 : Fin V → EReal) (v : Fin V) : EReal :=
  ∑ h : Fin H, hidden x W1 b1 z h * W2 h v + b2 v

/-- The log-softmax of the scores depends on the input row, the weights and the biases only through their entries. -/
theorem logSoftmax_score_congr {K H V : ℕ} {x x' : Fin K → EReal} {W1 W1' : Fin K → Fin H → EReal} {b1 b1' : Fin H → EReal}
    {W2 W2' : Fin H → Fin V → EReal} {b2 b2' : Fin V → EReal} (bot z : EReal) {v v' : Fin V}
    (hx : ∀ f, x f = x' f) (hW1 : ∀ f h, W1 f h = W1' f h) (hb1 : ∀ h, b1 h = b1' h)
    (hW2 : ∀ h k, W2 h k = W2' h k) (hb2 : ∀ k, b2 k = b2' k) (hv : v = v') :
    logSoftmax bot (score x W1 b1 z W2 b2) v = logSoftmax bot (score x' W1' b1' z W2' b2') v' := by
  obtain rfl : x = x' := funext hx
  obtain rfl : W1 = W1' := funext fun f => funext (hW1 f)
  obtain rfl : b1 = b1' := funext hb1
  obtain rfl : W2 = W2' := funext fun h => funext (hW2 h)
  obtain rfl : b2 = b2' := funext hb2
  rw [hv]

/-- The entry of the result at batch entry `b`, source position `t`, target position `s` and vocabulary entry `v`, from
    the six argument arrays. The threshold of the hidden layer and the starting value of the maximum are the
    single-precision words the programs write (zero and minus infinity), kept as words. -/
def entry (src : (⟨3, ![4, 160, 640]⟩ : Shape).Idx → EReal) (tgt : (⟨3, ![4, 80, 640]⟩ : Shape).Idx → EReal)
    (W1 : (⟨2, ![640, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (b : Fin 4) (t : Fin 160) (s : Fin 80) (v : Fin 1024) : EReal :=
  logSoftmax (Ideal.ofBits .f32 0xFF800000#32)
    (score (fun f : Fin 640 => src (ix3 b t f) + tgt (ix3 b s f)) (fun (f : Fin 640) (h : Fin 1024) => W1 (ix2 f h))
      (fun h : Fin 1024 => b1 (ix1 h)) (Ideal.ofBits .f32 0x00000000#32)
      (fun (h : Fin 1024) (k : Fin 1024) => W2 (ix2 h k)) (fun k : Fin 1024 => b2 (ix1 k))) v

/-- The whole result array as one function of the argument arrays. -/
def result (src : (⟨3, ![4, 160, 640]⟩ : Shape).Idx → EReal) (tgt : (⟨3, ![4, 80, 640]⟩ : Shape).Idx → EReal)
    (W1 : (⟨2, ![640, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal) :
    (⟨4, ![4, 160, 80, 1024]⟩ : Shape).Idx → EReal :=
  fun i => entry src tgt W1 b1 W2 b2 (i 0) (i 1) (i 2) (i 3)

theorem result_ix4 (src : (⟨3, ![4, 160, 640]⟩ : Shape).Idx → EReal) (tgt : (⟨3, ![4, 80, 640]⟩ : Shape).Idx → EReal)
    (W1 : (⟨2, ![640, 1024]⟩ : Shape).Idx → EReal) (b1 : (⟨1, ![1024]⟩ : Shape).Idx → EReal)
    (W2 : (⟨2, ![1024, 1024]⟩ : Shape).Idx → EReal) (b2 : (⟨1, ![1024]⟩ : Shape).Idx → EReal)
    (b : Fin 4) (t : Fin 160) (s : Fin 80) (v : Fin 1024) :
    result src tgt W1 b1 W2 b2 (ix4 b t s v) = entry src tgt W1 b1 W2 b2 b t s v := rfl

end Cert.PairFfn

end
-- ==== Proof.KernelBlock.lean ====
/-
  ONE BLOCK OF THE KERNEL'S RESULT, READ AT AN INDEX.

  At a grid point the body holds 8 source rows and 80 target rows of one batch entry. It lays the 8 · 80 sums
  "source row i + target row s" out as the rows of a 640 × 640 matrix, row `i · 80 + s`, pushes that matrix through the
  two dense layers with the cut at zero in between, takes the log-softmax of every row of the 640 × 1024 scores, and
  lays the rows back out as an 8 × 80 × 1024 block. So the block's entry `(i, s, v)` is the log-softmax at `v` of the
  scores of the input row "source row i + target row s" — `Cert.LibLogSoftmaxRow.logSoftmax` of `Cert.PairFfn.score`.
-/
import proofs.«160785_j25520695673520_2_alg».proof.Proof.Gen.KernelIdeal.Skeleton
import proofs.«160785_j25520695673520_2_alg».proof.Proof.LibDeviceRows
import proofs.«160785_j25520695673520_2_alg».proof.Proof.PairFfn

noncomputable section

open scoped BigOperators

namespace Cert.KernelIdeal.Block

open Cert.KernelIdeal Cert.KernelIdeal.Gen Idealize.ShloMosaic Idealize.ShloMosaic.ValueIdx

/-- The row of the 640-row matrices that holds source row `i` against target row `s`. -/
def rowOf (i : Fin 8) (s : Fin 80) : Fin 640 := ⟨i.val * 80 + s.val, by have := i.isLt; have := s.isLt; omega⟩

/-- THE INPUT ROWS: row `i · 80 + s` of the 640 × 640 matrix the body builds is the entrywise sum of source row `i` and
    target row `s` of the loaded blocks (the change of format in between is the identity on the extended reals). -/
theorem inputRows_apply (P0 : Vec Ideal S1x8x640 .f32) (P1 : Vec Ideal S1x80x640 .f32) (i : Fin 8) (s : Fin 80) (f : Fin 640) :
    shapeCast S640x640
        (truncf (F := Ideal) .bf16
          (addf (F := Ideal)
            (broadcastTo S8x80x640 (shapeCast S8x1x640 (shapeCast S8x640 P0 shapeCasts_S1x8x640_S8x640) shapeCasts_S8x640_S8x1x640)
              broadcasts_S8x1x640_S8x80x640)
            (broadcastTo S8x80x640 (shapeCast S1x80x640 (shapeCast S80x640 P1 shapeCasts_S1x80x640_S80x640) shapeCasts_S80x640_S1x80x640)
              broadcasts_S1x80x640_S8x80x640))
          bitsLt_bf16_f32)
        shapeCasts_S8x80x640_S640x640 (ix2 (rowOf i s) f)
      = P0 (ix3 (0 : Fin 1) i f) + P1 (ix3 (0 : Fin 1) s f) := by
  refine (shapeCast_apply _ _ (ix2 (rowOf i s) f) (ix3 i s f) (by
    rw [Shape.rowMajor_val_three, Shape.rowMajor_val_two]; rfl)).trans ?_
  refine congrArg₂ (fun x y : EReal => x + y) ?_ ?_
  · refine (broadcastTo_apply _ _ (ix3 i s f) (ix3 i (0 : Fin 1) f) (fun ax => by
      match ax with
      | ⟨0, _⟩ => rfl
      | ⟨1, _⟩ => rfl
      | ⟨2, _⟩ => rfl)).trans ?_
    refine (shapeCast_apply _ _ (ix3 i (0 : Fin 1) f) (ix2 i f) (by
      rw [Shape.rowMajor_val_two, Shape.rowMajor_val_three]
      show i.val * 640 + f.val = (i.val * 1 + 0) * 640 + f.val
      omega)).trans ?_
    exact shapeCast_apply _ _ (ix2 i f) (ix3 (0 : Fin 1) i f) (by
      rw [Shape.rowMajor_val_three, Shape.rowMajor_val_two]
      show (0 * 8 + i.val) * 640 + f.val = i.val * 640 + f.val
      omega)
  · refine (broadcastTo_apply _ _ (ix3 i s f) (ix3 (0 : Fin 1) s f) (fun ax => by
      match ax with
      | ⟨0, _⟩ => rfl
      | ⟨1, _⟩ => rfl
      | ⟨2, _⟩ => rfl)).trans ?_
    refine (shapeCast_apply _ _ (ix3 (0 : Fin 1) s f) (ix2 s f) (by
      rw [Shape.rowMajor_val_two, Shape.rowMajor_val_three]
      show s.val * 640 + f.val = (0 * 80 + s.val) * 640 + f.val
      omega)).trans ?_
    exact shapeCast_apply _ _ (ix2 s f) (ix3 (0 : Fin 1) s f) (by
      rw [Shape.rowMajor_val_three, Shape.rowMajor_val_two]
      show (0 * 80 + s.val) * 640 + f.val = s.val * 640 + f.val
      omega)

/-- THE BLOCK AT AN INDEX: entry `(i, s, v)` of what the body computes from its six loaded blocks is the log-softmax at `v`
    of the scores of "source row i + target row s" through the two loaded weight blocks and bias rows. -/
theorem block_apply (P0 : Vec Ideal S1x8x640 .f32) (P1 : Vec Ideal S1x80x640 .f32) (P2 : Vec Ideal S640x1024 .bf16)
    (P3 : Vec Ideal S1x1024 .f32) (P4 : Vec Ideal S1024x1024 .bf16) (P5 : Vec Ideal S1x1024 .f32)
    (i : Fin 8) (s : Fin 80) (v : Fin 1024) :
    k0_pay2 (F := Ideal) P0 P1 P2 P3 P4 P5 (ix3 i s v)
      = Cert.LibLogSoftmaxRow.logSoftmax (Ideal.ofBits .f32 0xFF800000#32)
          (Cert.PairFfn.score (fun f : Fin 640 => P0 (ix3 (0 : Fin 1) i f) + P1 (ix3 (0 : Fin 1) s f))
            (fun (f : Fin 640) (h : Fin 1024) => P2 (ix2 f h)) (fun h : Fin 1024 => P3 (ix2 (0 : Fin 1) h))
            (Ideal.ofBits .f32 0x00000000#32)
            (fun (h : Fin 1024) (k : Fin 1024) => P4 (ix2 h k)) (fun k : Fin 1024 => P5 (ix2 (0 : Fin 1) k))) v := by
  unfold k0_pay2
  refine (shapeCast_apply _ _ (ix3 i s v) (ix2 (rowOf i s) v) (by
    rw [Shape.rowMajor_val_two, Shape.rowMajor_val_three]; rfl)).trans ?_
  refine (Cert.LibDeviceRows.logSoftmax_keepdims _ 0xFF800000#32 0x00000000#32 reduces_S640x1024_S640 (.inl rfl) rfl rfl
    shapeCasts_S640_S640x1 broadcasts_S640x1_S640x1024 (rowOf i s) v).trans ?_
  refine congrArg (fun L : Fin 1024 → EReal => Cert.LibLogSoftmaxRow.logSoftmax (Ideal.ofBits .f32 0xFF800000#32) L v) (funext fun k => ?_)
  refine (Cert.LibDeviceRows.dense_apply dot_S640x1024_S1024x1024_S640x1024_1_0_0_1_n_n_wf none _ _ _
    broadcasts_S1x1024_S640x1024 (rowOf i s) k).trans ?_
  unfold Cert.PairFfn.score
  refine congrArg₂ (fun x y : EReal => x + y) (Finset.sum_congr rfl fun h _ => congrArg₂ (fun x y : EReal => x * y) ?_ ?_) ?_
  · show max _ (Ideal.ofBits .f32 0x00000000#32) = _
    unfold Cert.PairFfn.hidden
    refine congrArg (fun x : EReal => max x (Ideal.ofBits .f32 0x00000000#32)) ?_
    refine (Cert.LibDeviceRows.dense_apply dot_S640x640_S640x1024_S640x1024_1_0_0_1_n_n_wf none _ _ _
      broadcasts_S1x1024_S640x1024 (rowOf i s) h).trans ?_
    refine congrArg₂ (fun x y : EReal => x + y)
      (Finset.sum_congr rfl fun f _ => congrArg₂ (fun x y : EReal => x * y) (inputRows_apply P0 P1 i s f) ?_) ?_
    · exact congrFun (shapeCast_self P2 shapeCasts_S640x1024_S640x1024) (ix2 f h)
    · exact congrFun (shapeCast_self P3 shapeCasts_S1x1024_S1x1024) (ix2 (0 : Fin 1) h)
  · exact congrFun (shapeCast_self P4 shapeCasts_S1024x1024_S1024x1024) (ix2 h k)
  · exact congrFun (shapeCast_self P5 shapeCasts_S1x1024_S1x1024) (ix2 (0 : Fin 1) k)

end Cert.KernelIdeal.Block

end
-- ==== Proof.KernelWhole.lean ====
/-
  THE KERNEL'S RESULT ARRAY AS ONE FUNCTION OF THE ARGUMENT ARRAYS.

  The grid has a point per batch entry `b` and per group of 8 source positions. At a point the kernel reads rows
  `8·q … 8·q + 7` of batch entry `b` of the source encodings, all 80 rows of batch entry `b` of the target encodings, and
  the two weight matrices and bias rows whole (the weights as the host re-typed them, the biases as the host recast
  them to one-row matrices — both the identity on the extended reals), and writes block `(b, q)` of the result: 8 source
  positions × 80 target positions × the vocabulary. By the block's formula (`Block.block_apply`) every entry it writes is
  `Cert.PairFfn.entry` of the argument arrays at that entry's own coordinates; the 4 · 20 blocks tile the result array;
  so the array ends holding `Cert.PairFfn.result` of the argument arrays.
-/
import proofs.«160785_j25520695673520_2_alg».proof.Proof.Gen.KernelIdeal.Value
import proofs.«160785_j25520695673520_2_alg».proof.Proof.KernelBlock
import Idealize.ShloMosaic.Lib.Pipeline.Value
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-! ## The argument arrays, as the programs' memory holds them at launch -/

abbrev src (c : Dev nD) : (⟨3, ![4, 160, 640]⟩ : Shape).Idx → EReal := m ((c : Thread nD τ).loc main_arg0)
abbrev tgt (c : Dev nD) : (⟨3, ![4, 80, 640]⟩ : Shape).Idx → EReal := m ((c : Thread nD τ).loc main_arg1)
abbrev w1 (c : Dev nD) : (⟨2, ![640, 1024]⟩ : Shape).Idx → EReal := m ((c : Thread nD τ).loc main_arg2)
abbrev bias1 (c : Dev nD) : (⟨1, ![1024]⟩ : Shape).Idx → EReal := m ((c : Thread nD τ).loc main_arg3)
abbrev w2 (c : Dev nD) : (⟨2, ![1024, 1024]⟩ : Shape).Idx → EReal := m ((c : Thread nD τ).loc main_arg4)
abbrev bias2 (c : Dev nD) : (⟨1, ![1024]⟩ : Shape).Idx → EReal := m ((c : Thread nD τ).loc main_arg5)

/-- The whole result array the kernel is to end with. -/
abbrev goal (c : Dev nD) : (⟨4, ![4, 160, 80, 1024]⟩ : Shape).Idx → EReal :=
  Cert.PairFfn.result (src m c) (tgt m c) (w1 m c) (bias1 m c) (w2 m c) (bias2 m c)

/-! ## What the host prepared before the launch -/

/-- The first weights re-typed to the narrower format: the same numbers. -/
theorem V_w1 (c : Dev nD) : (V m c main_v0 : S640x1024.Idx → EReal) = w1 m c := by
  dsimp only [Gen.V, Gen.hostOps0]; after_results; rfl

/-- The second weights re-typed to the narrower format: the same numbers. -/
theorem V_w2 (c : Dev nD) : (V m c main_v1 : S1024x1024.Idx → EReal) = w2 m c := by
  dsimp only [Gen.V, Gen.hostOps0]; after_results; rfl

/-- The first bias recast as a one-row matrix. -/
theorem V_bias1 (c : Dev nD) : (V m c main_v2 : S1x1024.Idx → EReal) = shapeCast S1x1024 (bias1 m c) shapeCasts_S1024_S1x1024 := by
  dsimp only [Gen.V, Gen.hostOps0]; after_results; rfl

/-- The second bias recast as a one-row matrix. -/
theorem V_bias2 (c : Dev nD) : (V m c main_v3 : S1x1024.Idx → EReal) = shapeCast S1x1024 (bias2 m c) shapeCasts_S1024_S1x1024 := by
  dsimp only [Gen.V, Gen.hostOps0]; after_results; rfl

/-- A vector recast as a one-row matrix reads, at `(0, h)`, the vector's entry `h`. -/
theorem row_cast (x : (⟨1, ![1024]⟩ : Shape).Idx → EReal) (z : Fin 1) (h : Fin 1024) :
    shapeCast S1x1024 x shapeCasts_S1024_S1x1024 (ix2 z h) = x (ix1 h) :=
  shapeCast_apply x _ _ _ (by
    have hz : z.val = 0 := by omega
    rw [Shape.rowMajor_val_one, Shape.rowMajor_val_two]
    show h.val = z.val * 1024 + h.val
    omega)

/-! ## The printed index maps over the grid -/

/-- Decided over the 80 points: the source window moves with the result window on the batch axis and the axis of
    source positions, the target window on the batch axis only, the weight and bias windows stay put, and the result
    window's block indices are a batch entry and a group of 8 source positions. -/
theorem idx_facts : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (2 : Fin 4) = 0 ∧ win0_6.index t (3 : Fin 4) = 0
    ∧ win0_6.index t (0 : Fin 4) < 4 ∧ win0_6.index t (1 : Fin 4) < 20 :=
  (by decide +kernel : ∀ t : Fin grid0.N, _)

/-- Every pair of a batch entry and a group of source positions is some point's block. -/
theorem idx_onto : ∀ (q0 : Fin 4) (q1 : Fin 20), ∃ t : Fin cfg0.N, win0_6.index t = ![q0.val, q1.val, 0, 0] :=
  (by decide +kernel : ∀ (q0 : Fin 4) (q1 : Fin 20), ∃ t : Fin grid0.N, win0_6.index t = ![q0.val, q1.val, 0, 0])

/-! ## The input windows' blocks, read at an index -/

/-- The source window's block at a point: row `i` of it is source position `8·q + i` of batch entry `b`. -/
theorem src_block (c : Dev nD) (t : Fin cfg0.N) (z : Fin 1) (i : Fin 8) (f : Fin 640) (b : Fin 4) (r : Fin 160)
    (hb : b.val = win0_6.index t (0 : Fin 4)) (hr : r.val = win0_6.index t (1 : Fin 4) * 8 + i.val) :
    (iblk m c 0 t : Vec Ideal S1x8x640 .f32) (ix3 z i f) = src m c (ix3 b r f) := by
  obtain ⟨e0, e1, e2, -⟩ := idx_facts t
  have hz : z.val = 0 := by omega
  show V m c main_arg0 (((cfg0.win 0).blk t).view.emb (ix3 z i f)) = _
  rw [V_main_arg0]
  show src m c _ = src m c _
  refine congrArg (src m c) (funext fun a => Fin.ext ?_)
  match a with
  | ⟨0, _⟩ => show win0_0.index t (0 : Fin 3) * 1 + 1 * z.val = b.val; omega
  | ⟨1, _⟩ => show win0_0.index t (1 : Fin 3) * 8 + 1 * i.val = r.val; omega
  | ⟨2, _⟩ => show win0_0.index t (2 : Fin 3) * 640 + 1 * f.val = f.val; omega

/-- The target window's block at a point: all 80 target positions of batch entry `b`. -/
theorem tgt_block (c : Dev nD) (t : Fin cfg0.N) (z : Fin 1) (s : Fin 80) (f : Fin 640) (b : Fin 4)
    (hb : b.val = win0_6.index t (0 : Fin 4)) :
    (iblk m c 1 t : Vec Ideal S1x80x640 .f32) (ix3 z s f) = tgt m c (ix3 b s f) := by
  obtain ⟨-, -, -, e0, e1, e2, -⟩ := idx_facts t
  have hz : z.val = 0 := by omega
  show V m c main_arg1 (((cfg0.win 1).blk t).view.emb (ix3 z s f)) = _
  rw [V_main_arg1]
  show tgt m c _ = tgt m c _
  refine congrArg (tgt m c) (funext fun a => Fin.ext ?_)
  match a with
  | ⟨0, _⟩ => show win0_1.index t (0 : Fin 3) * 1 + 1 * z.val = b.val; omega
  | ⟨1, _⟩ => show win0_1.index t (1 : Fin 3) * 80 + 1 * s.val = s.val; omega
  | ⟨2, _⟩ => show win0_1.index t (2 : Fin 3) * 640 + 1 * f.val = f.val; omega

/-- The first weights' window is the whole matrix at every point. -/
theorem w1_block (c : Dev nD) (t : Fin cfg0.N) (f : Fin 640) (h : Fin 1024) :
    (iblk m c 2 t : Vec Ideal S640x1024 .bf16) (ix2 f h) = w1 m c (ix2 f h) := by
  obtain ⟨-, -, -, -, -, -, e0, e1, -⟩ := idx_facts t
  show V m c main_v0 (((cfg0.win 2).blk t).view.emb (ix2 f h)) = _
  refine (congrFun (V_w1 m c) _).trans ?_
  refine congrArg (w1 m c) (funext fun a => Fin.ext ?_)
  match a with
  | ⟨0, _⟩ => show win0_2.index t (0 : Fin 2) * 640 + 1 * f.val = f.val; omega
  | ⟨1, _⟩ => show win0_2.index t (1 : Fin 2) * 1024 + 1 * h.val = h.val; omega

/-- The first bias row's window is the whole row at every point. -/
theorem bias1_block (c : Dev nD) (t : Fin cfg0.N) (z : Fin 1) (h : Fin 1024) :
    (iblk m c 3 t : Vec Ideal S1x1024 .f32) (ix2 z h) = bias1 m c (ix1 h) := by
  obtain ⟨-, -, -, -, -, -, -, -, e0, e1, -⟩ := idx_facts t
  have hz : z.val = 0 := by omega
  show V m c main_v2 (((cfg0.win 3).blk t).view.emb (ix2 z h)) = _
  refine (congrFun (V_bias1 m c) _).trans ?_
  refine (congrArg (shapeCast S1x1024 (bias1 m c) shapeCasts_S1024_S1x1024) (funext fun a => Fin.ext ?_)).trans (row_cast (bias1 m c) z h)
  match a with
  | ⟨0, _⟩ => show win0_3.index t (0 : Fin 2) * 1 + 1 * z.val = z.val; omega
  | ⟨1, _⟩ => show win0_3.index t (1 : Fin 2) * 1024 + 1 * h.val = h.val; omega

/-- The second weights' window is the whole matrix at every point. -/
theorem w2_block (c : Dev nD) (t : Fin cfg0.N) (h : Fin 1024) (k : Fin 1024) :
    (iblk m c 4 t : Vec Ideal S1024x1024 .bf16) (ix2 h k) = w2 m c (ix2 h k) := by
  obtain ⟨-, -, -, -, -, -, -, -, -, -, e0, e1, -⟩ := idx_facts t
  show V m c main_v1 (((cfg0.win 4).blk t).view.emb (ix2 h k)) = _
  refine (congrFun (V_w2 m c) _).trans ?_
  refine congrArg (w2 m c) (funext fun a => Fin.ext ?_)
  match a with
  | ⟨0, _⟩ => show win0_4.index t (0 : Fin 2) * 1024 + 1 * h.val = h.val; omega
  | ⟨1, _⟩ => show win0_4.index t (1 : Fin 2) * 1024 + 1 * k.val = k.val; omega

/-- The second bias row's window is the whole row at every point. -/
theorem bias2_block (c : Dev nD) (t : Fin cfg0.N) (z : Fin 1) (k : Fin 1024) :
    (iblk m c 5 t : Vec Ideal S1x1024 .f32) (ix2 z k) = bias2 m c (ix1 k) := by
  obtain ⟨-, -, -, -, -, -, -, -, -, -, -, -, e0, e1, -⟩ := idx_facts t
  have hz : z.val = 0 := by omega
  show V m c main_v3 (((cfg0.win 5).blk t).view.emb (ix2 z k)) = _
  refine (congrFun (V_bias2 m c) _).trans ?_
  refine (congrArg (shapeCast S1x1024 (bias2 m c) shapeCasts_S1024_S1x1024) (funext fun a => Fin.ext ?_)).trans (row_cast (bias2 m c) z k)
  match a with
  | ⟨0, _⟩ => show win0_5.index t (0 : Fin 2) * 1 + 1 * z.val = z.val; omega
  | ⟨1, _⟩ => show win0_5.index t (1 : Fin 2) * 1024 + 1 * k.val = k.val; omega

/-! ## What a point leaves in the result window's buffer -/

/-- The body's one store, over its six loads as variables: entry `(0, i, s, v)` of the buffer is the log-softmax at `v` of
    the scores of "source row i + target row s". -/
theorem out_apply (x0 : Vec Ideal S1x8x640 .f32) (x1 : Vec Ideal S1x80x640 .f32) (x2 : Vec Ideal S640x1024 .bf16)
    (x3 : Vec Ideal S1x1024 .f32) (x4 : Vec Ideal S1024x1024 .bf16) (x5 : Vec Ideal S1x1024 .f32)
    (z : Fin 1) (i : Fin 8) (s : Fin 80) (v : Fin 1024) :
    out0_6 x0 x1 x2 x3 x4 x5 (ix4 z i s v)
      = Cert.LibLogSoftmaxRow.logSoftmax (Ideal.ofBits .f32 0xFF800000#32)
          (Cert.PairFfn.score (fun f : Fin 640 => x0 (ix3 (0 : Fin 1) i f) + x1 (ix3 (0 : Fin 1) s f))
            (fun (f : Fin 640) (h : Fin 1024) => x2 (ix2 f h)) (fun h : Fin 1024 => x3 (ix2 (0 : Fin 1) h))
            (Ideal.ofBits .f32 0x00000000#32)
            (fun (h : Fin 1024) (k : Fin 1024) => x4 (ix2 h k)) (fun k : Fin 1024 => x5 (ix2 (0 : Fin 1) k))) v := by
  unfold out0_6
  refine (Cert.KernelIdeal.Value.canon6_eq _ _ _ _ _ _ (ix4 z i s v)).trans ?_
  show k0_pay2 (View.ld x0 r0_0) (View.ld x1 r0_1) (View.ld x2 r0_2) (View.ld x3 r0_3) (View.ld x4 r0_4) (View.ld x5 r0_3)
      (Cert.KernelIdeal.Value.ix6_0 (ix4 z i s v)) = _
  simp only [View.ld_unit_zero (S := S1x8x640) hz3, View.ld_unit_zero (S := S1x80x640) hz3, View.ld_unit_zero (S := S640x1024) hz2,
    View.ld_unit_zero (S := S1x1024) hz2, View.ld_unit_zero (S := S1024x1024) hz2]
  have e : Cert.KernelIdeal.Value.ix6_0 (ix4 z i s v) = ix3 i s v :=
    funext fun a => Fin.ext (by match a with | ⟨0, _⟩ => rfl | ⟨1, _⟩ => rfl | ⟨2, _⟩ => rfl)
  rw [e]
  exact Cert.KernelIdeal.Block.block_apply x0 x1 x2 x3 x4 x5 i s v

/-- The buffer after the body at point `t`, entry by entry: the whole result at the array index that entry is written
    back to. -/
theorem point_entry (c : Dev nD) (t : Fin cfg0.N) (y : S1x8x80x1024.Idx) :
    out0_6 (iblk m c 0 t) (iblk m c 1 t) (iblk m c 2 t) (iblk m c 3 t) (iblk m c 4 t) (iblk m c 5 t) y
      = goal m c (((cfg0.win 6).blk t).view.emb y) := by
  obtain ⟨z, i, s, v, rfl⟩ : ∃ (z : Fin 1) (i : Fin 8) (s : Fin 80) (v : Fin 1024), y = ix4 z i s v :=
    ⟨y 0, y 1, y 2, y 3, eq_ix4 y⟩
  obtain ⟨-, -, -, -, -, -, -, -, -, -, -, -, -, -, e2, e3, lt0, lt1⟩ := idx_facts t
  have hz : z.val = 0 := by omega
  have hi : i.val < 8 := i.isLt
  have he : ((cfg0.win 6).blk t).view.emb (ix4 z i s v)
      = ix4 (⟨win0_6.index t (0 : Fin 4), lt0⟩ : Fin 4) (⟨win0_6.index t (1 : Fin 4) * 8 + i.val, by omega⟩ : Fin 160) s v :=
    funext fun a => Fin.ext (by
      match a with
      | ⟨0, _⟩ => show win0_6.index t (0 : Fin 4) * 1 + 1 * z.val = win0_6.index t (0 : Fin 4); omega
      | ⟨1, _⟩ => show win0_6.index t (1 : Fin 4) * 8 + 1 * i.val = win0_6.index t (1 : Fin 4) * 8 + i.val; omega
      | ⟨2, _⟩ => show win0_6.index t (2 : Fin 4) * 80 + 1 * s.val = s.val; omega
      | ⟨3, _⟩ => show win0_6.index t (3 : Fin 4) * 1024 + 1 * v.val = v.val; omega)
  rw [he]
  dsimp only [goal]
  rw [Cert.PairFfn.result_ix4]
  refine (out_apply (iblk m c 0 t) (iblk m c 1 t) (iblk m c 2 t) (iblk m c 3 t) (iblk m c 4 t) (iblk m c 5 t) z i s v).trans ?_
  unfold Cert.PairFfn.entry
  exact Cert.PairFfn.logSoftmax_score_congr _ _
    (fun f => congrArg₂ (fun x y : EReal => x + y)
      (src_block m c t (0 : Fin 1) i f (⟨win0_6.index t (0 : Fin 4), lt0⟩ : Fin 4)
        (⟨win0_6.index t (1 : Fin 4) * 8 + i.val, by omega⟩ : Fin 160) rfl rfl)
      (tgt_block m c t (0 : Fin 1) s f (⟨win0_6.index t (0 : Fin 4), lt0⟩ : Fin 4) rfl))
    (fun f h => w1_block m c t f h) (fun h => bias1_block m c t (0 : Fin 1) h) (fun h k => w2_block m c t h k)
    (fun k => bias2_block m c t (0 : Fin 1) k) rfl

/-- WHAT POINT `t` WRITES BACK is block `t` of the whole result. -/
theorem flushed_eq (c : Dev nD) (t : Fin cfg0.N) :
    (dats m 0 c).flushed 6 t = ((cfg0.win 6).blk t).view.read (Elt Ideal) (goal m c) := by
  rw [Cert.KernelIdeal.Value.flushed6]
  funext j
  show out0_6 (iblk m c 0 t) (iblk m c 1 t) (iblk m c 2 t) (iblk m c 3 t) (iblk m c 4 t) (iblk m c 5 t) j
      = goal m c (((cfg0.win 6).blk t).view.emb j)
  exact point_entry m c t j

/-! ## The blocks tile the result array -/

/-- An index of the array is in point `t`'s block iff each coordinate is in the block's range on its axis. -/
theorem mem_blk (t : Fin cfg0.N) (i : S4x160x80x1024.Idx) :
    i ∈ ((cfg0.win 6).blk t).view.set ↔ ∀ a : Fin 4, win0_6.index t a * S1x8x80x1024.size a ≤ (i a).val
      ∧ (i a).val < win0_6.index t a * S1x8x80x1024.size a + S1x8x80x1024.size a := by
  show i ∈ ((View.whole main_v4).slice (win0_6.rect t)).set ↔ _
  rw [View.set_slice_whole, Rect.mem_set_unit]
  exact Iff.rfl

/-- Every index of the result array lies in the block of the point of its batch entry and its group of 8 source positions. -/
theorem cover (i : S4x160x80x1024.Idx) : ∃ t : Fin cfg0.N, (cfg0.win 6).flush t = true ∧ i ∈ ((cfg0.win 6).blk t).view.set := by
  have hi0 : (i 0).val < 4 := (i 0).isLt
  have hi1 : (i 1).val < 160 := (i 1).isLt
  have hi2 : (i 2).val < 80 := (i 2).isLt
  have hi3 : (i 3).val < 1024 := (i 3).isLt
  obtain ⟨t, ht⟩ := idx_onto ⟨(i 0).val, hi0⟩ ⟨(i 1).val / 8, by omega⟩
  have q0 : win0_6.index t (0 : Fin 4) = (i 0).val := congrFun ht 0
  have q1 : win0_6.index t (1 : Fin 4) = (i 1).val / 8 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 8 ≤ (i 1).val ∧ (i 1).val < win0_6.index t (1 : Fin 4) * 8 + 8; omega
  | ⟨2, _⟩ => show win0_6.index t (2 : Fin 4) * 80 ≤ (i 2).val ∧ (i 2).val < win0_6.index t (2 : Fin 4) * 80 + 80; omega
  | ⟨3, _⟩ => show win0_6.index t (3 : Fin 4) * 1024 ≤ (i 3).val ∧ (i 3).val < win0_6.index t (3 : Fin 4) * 1024 + 1024; omega

/-- THE RESULT ARRAY after the run is the whole result. -/
theorem final (c : Dev nD) : (dats m 0 c).arrAt 6 cfg0.N = goal m c :=
  (dats m 0 c).arrAt_eq_of_cover 6 (goal m c) (fun t _ => flushed_eq m c t) cover

/-- The kernel's run, read: the result array at the whole result of the argument arrays, the arguments unchanged. -/
theorem run : θ_run defs (onTc (τ := τ) (main (F := Ideal))) ⟨m, fun _ => 0, ρ⟩ fun r => ∀ c : Dev nD,
      r.2.mem ((c : Thread nD τ).loc main_v4) = goal m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.ReferenceValue.lean ====
/-
  THE REFERENCE'S RESULT ARRAY AS THE SAME FUNCTION OF THE ARGUMENT ARRAYS.

  The reference spreads the source and target encodings over a common 4 × 160 × 80 × 640 array and adds them, so its
  input row at `(b, t, s)` is "source row (b, t) + target row (b, s)"; each of its two products contracts the last axis
  against a weight matrix and adds the bias spread over all rows; the cut at zero is a maximum with a spread zero; and
  its log-softmax over the last axis is spelt exactly as the kernel's, with two harmless extras: the row maximum is
  taken once more against minus infinity, the value it was folded from, and the row sum starts from the word of zero.
  Read at an index, stage by stage, the last stage is `Cert.PairFfn.entry` of the arguments.
-/
import proofs.«160785_j25520695673520_2_alg».proof.Proof.RefReadPatched
import proofs.«160785_j25520695673520_2_alg».proof.Proof.PairFfn

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S4x160x640, .f32⟩ : BufTy).Contents (Elt Ideal)) (x1 : (⟨S4x80x640, .f32⟩ : BufTy).Contents (Elt Ideal)) (x2 : (⟨S640x1024, .f32⟩ : BufTy).Contents (Elt Ideal))
  (x3 : (⟨S1024, .f32⟩ : BufTy).Contents (Elt Ideal)) (x4 : (⟨S1024x1024, .f32⟩ : BufTy).Contents (Elt Ideal)) (x5 : (⟨S1024, .f32⟩ : BufTy).Contents (Elt Ideal))

/-- The scores of the row at batch entry `b`, source position `t`, target position `s`. -/
abbrev scores (b : Fin 4) (t : Fin 160) (s : Fin 80) : Fin 1024 → EReal :=
  Cert.PairFfn.score (fun f : Fin 640 => x0 (ix3 b t f) + x1 (ix3 b s f)) (fun (f : Fin 640) (h : Fin 1024) => x2 (ix2 f h))
    (fun h : Fin 1024 => x3 (ix1 h)) (Ideal.ofBits .f32 0x00000000#32)
    (fun (h : Fin 1024) (k : Fin 1024) => x4 (ix2 h k)) (fun k : Fin 1024 => x5 (ix1 k))

/-- The hidden layer: first product, bias, maximum with the spread zero. -/
theorem hidden_eq (b : Fin 4) (t : Fin 160) (s : Fin 80) (h : Fin 1024) :
    val_main_v9 (F := Ideal) x0 x1 x2 x3 (ix4 b t s h)
      = Cert.PairFfn.hidden (fun f : Fin 640 => x0 (ix3 b t f) + x1 (ix3 b s f)) (fun (f : Fin 640) (h : Fin 1024) => x2 (ix2 f h))
          (fun h : Fin 1024 => x3 (ix1 h)) (Ideal.ofBits .f32 0x00000000#32) h := by
  rw [val_main_v9_apply, val_main_v8_apply, val_main_v5_apply, val_main_v7_apply, val_main_v6_apply, val_main_call0_v0_apply,
    val_main_call0_cst_apply]
  unfold Cert.PairFfn.hidden
  refine congrArg₂ (fun a z : EReal => max a z)
    (congrArg₂ (fun a c : EReal => a + c) (Finset.sum_congr rfl fun f _ => congrArg₂ (fun a c : EReal => a * c) ?_ ?_) ?_) rfl
  · rw [val_main_v4_apply, val_main_v2_apply, val_main_v0_apply, val_main_v3_apply, val_main_v1_apply]
    exact congrArg₂ (fun a c : EReal => a + c)
      (congrArg x0 (funext fun a => Fin.ext (by match a with | ⟨0, _⟩ => rfl | ⟨1, _⟩ => rfl | ⟨2, _⟩ => rfl)))
      (congrArg x1 (funext fun a => Fin.ext (by match a with | ⟨0, _⟩ => rfl | ⟨1, _⟩ => rfl | ⟨2, _⟩ => rfl)))
  · exact congrArg x2 (funext fun a => Fin.ext (by match a with | ⟨0, _⟩ => rfl | ⟨1, _⟩ => rfl))
  · exact congrArg x3 (funext fun a => Fin.ext (by match a with | ⟨0, _⟩ => rfl))

/-- The scores: second product and bias. -/
theorem score_eq (b : Fin 4) (t : Fin 160) (s : Fin 80) (k : Fin 1024) :
    val_main_v13 (F := Ideal) x0 x1 x2 x3 x4 x5 (ix4 b t s k) = scores x0 x1 x2 x3 x4 x5 b t s k := by
  rw [val_main_v13_apply, val_main_v10_apply, val_main_v12_apply, val_main_v11_apply]
  unfold scores Cert.PairFfn.score
  refine congrArg₂ (fun a c : EReal => a + c) (Finset.sum_congr rfl fun h _ => congrArg₂ (fun a c : EReal => a * c) ?_ ?_) ?_
  · have e : lidx_main_v10 (ix4 b t s k) h = ix4 b t s h :=
      funext fun a => Fin.ext (by match a with | ⟨0, _⟩ => rfl | ⟨1, _⟩ => rfl | ⟨2, _⟩ => rfl | ⟨3, _⟩ => rfl)
    rw [e]
    exact hidden_eq x0 x1 x2 x3 b t s h
  · exact congrArg x4 (funext fun a => Fin.ext (by match a with | ⟨0, _⟩ => rfl | ⟨1, _⟩ => rfl))
  · exact congrArg x5 (funext fun a => Fin.ext (by match a with | ⟨0, _⟩ => rfl))

/-- The host's maximum over the last axis of a 4 × 160 × 80 × 1024 array, at `(b, t, s)`: the fold of `max` from the initial
    value over that row. -/
theorem hostRowMax (y : S4x160x80x1024.Idx → EReal) (init : S_.Idx → EReal) (b : Fin 4) (t : Fin 160) (s : Fin 80) :
    Host.reduce (FloatOps.maximumf (F := Ideal) (φ := .f32)) y init reducesTo_S4x160x80x1024_S4x160x80_d3 h_S_ (ix3 b t s)
      = Cert.LibLogSoftmaxRow.rowMax (init (Shape.Idx.first h_S_)) (fun k : Fin 1024 => y (ix4 b t s k)) := by
  rw [Host.reduce_eq_fold_single (FloatOps.maximumf (F := Ideal) (φ := .f32)) y init reducesTo_S4x160x80x1024_S4x160x80_d3
    (by decide) h_S_ (ix3 b t s)]
  unfold Cert.LibLogSoftmaxRow.rowMax
  refine congrArg (fun g : Fin 1024 → EReal => (Finset.univ : Finset (Fin 1024)).fold max (init (Shape.Idx.first h_S_)) g)
    (funext fun k => ?_)
  exact congrArg y (funext fun a => Fin.ext (by match a with | ⟨0, _⟩ => rfl | ⟨1, _⟩ => rfl | ⟨2, _⟩ => rfl | ⟨3, _⟩ => rfl))

/-- The row maximum the reference subtracts: the fold of `max` from minus infinity over the row's scores (taken once more
    against minus infinity, which changes nothing). -/
theorem rowMax_eq (b : Fin 4) (t : Fin 160) (s : Fin 80) :
    val_main_call1_v2 (F := Ideal) x0 x1 x2 x3 x4 x5 (ix3 b t s)
      = Cert.LibLogSoftmaxRow.rowMax (Ideal.ofBits .f32 0xFF800000#32) (scores x0 x1 x2 x3 x4 x5 b t s) := by
  rw [val_main_call1_v2_apply, val_main_call1_v1_apply, val_main_call1_cst_0_apply]
  unfold val_main_call1_v0
  rw [hostRowMax]
  have hL : (fun k : Fin 1024 => val_main_v13 (F := Ideal) x0 x1 x2 x3 x4 x5 (ix4 b t s k)) = scores x0 x1 x2 x3 x4 x5 b t s :=
    funext fun k => score_eq x0 x1 x2 x3 x4 x5 b t s k
  rw [hL]
  exact Cert.LibLogSoftmaxRow.max_rowMax _ _

/-- The shifted scores. -/
theorem shifted_eq (b : Fin 4) (t : Fin 160) (s : Fin 80) (k : Fin 1024) :
    val_main_call1_v5 (F := Ideal) x0 x1 x2 x3 x4 x5 (ix4 b t s k)
      = scores x0 x1 x2 x3 x4 x5 b t s k - Cert.LibLogSoftmaxRow.rowMax (Ideal.ofBits .f32 0xFF800000#32) (scores x0 x1 x2 x3 x4 x5 b t s) := by
  rw [val_main_call1_v5_apply, val_main_call1_v4_apply, val_main_call1_v3_apply, score_eq]
  have e : idx_main_call1_v3 (idx_main_call1_v4 (ix4 b t s k)) = ix3 b t s :=
    funext fun a => Fin.ext (by match a with | ⟨0, _⟩ => rfl | ⟨1, _⟩ => rfl | ⟨2, _⟩ => rfl)
  rw [e, rowMax_eq]
  rfl

/-- THE REFERENCE'S RESULT AT AN INDEX. -/
theorem entry_eq (b : Fin 4) (t : Fin 160) (s : Fin 80) (v : Fin 1024) :
    val_main_v14 (F := Ideal) x0 x1 x2 x3 x4 x5 (ix4 b t s v) = Cert.PairFfn.entry x0 x1 x2 x3 x4 x5 b t s v := by
  rw [val_main_v14_apply, shifted_eq, val_main_call1_v10_apply, val_main_call1_v9_apply, val_main_call1_v8_apply,
    val_main_call1_v7_apply, val_main_call1_cst_1_apply]
  unfold Cert.PairFfn.entry Cert.LibLogSoftmaxRow.logSoftmax
  refine congrArg (fun z : EReal => (scores x0 x1 x2 x3 x4 x5 b t s v - Cert.LibLogSoftmaxRow.rowMax (Ideal.ofBits .f32 0xFF800000#32) (scores x0 x1 x2 x3 x4 x5 b t s))
    - Ideal.log z) ?_
  refine (Cert.LibLogSoftmaxRow.zero_word_add _).trans (Finset.sum_congr rfl fun k _ => ?_)
  rw [val_main_call1_v6_apply]
  have e : idx_main_call1_v7 (idx_main_call1_v8 (idx_main_call1_v10 (ix4 b t s v))) k = ix4 b t s k :=
    funext fun a => Fin.ext (by match a with | ⟨0, _⟩ => rfl | ⟨1, _⟩ => rfl | ⟨2, _⟩ => rfl | ⟨3, _⟩ => rfl)
  rw [e, shifted_eq]
  rfl

/-- THE REFERENCE'S RESULT ARRAY is the whole result of its arguments. -/
theorem result_eq : val_main_v14 (F := Ideal) x0 x1 x2 x3 x4 x5 = Cert.PairFfn.result x0 x1 x2 x3 x4 x5 := by
  funext i
  obtain ⟨b, t, s, v, rfl⟩ : ∃ (b : Fin 4) (t : Fin 160) (s : Fin 80) (v : Fin 1024), i = ix4 b t s v :=
    ⟨i 0, i 1, i 2, i 3, eq_ix4 i⟩
  exact entry_eq x0 x1 x2 x3 x4 x5 b t s v

end Cert.ReferenceIdeal.RefValue

end
-- ==== Proof.lean ====
/-
  A kernel that scores every pair of a source position and a target position, against its plain reference.

  For batch entry `b`, source position `t` and target position `s` the input row is the entrywise sum of the source
  encoding at `(b, t)` and the target encoding at `(b, s)`; the row goes through an affine map into 1024 hidden units, a
  maximum with zero, and an affine map into 1024 scores; the scores are normalised by a log-softmax,
  `L v - M - log (∑ k, exp (L k - M))` with `M` the row's largest score (`Cert.PairFfn`).
  The kernel computes this one block of 8 source positions of one batch entry at a time: the 8 · 80 input rows laid out
  as one 640-row matrix, two products into zero accumulators with the bias row spread over the rows, the row maximum and
  the row sum kept as columns and spread back (`Cert.KernelIdeal.Block`), the 4 · 20 blocks tiling the result array
  (`Cert.KernelIdeal.Whole`). The reference computes it on the whole 4 × 160 × 80 array of rows at once
  (`Cert.ReferenceIdeal.RefValue`). On the extended reals the two are the same expression entry by entry — the narrower
  number format the kernel passes its operands through is the identity there, a product into a zero accumulator is the
  plain sum of products, the reference's second maximum against minus infinity and its sum's starting zero change
  nothing — so no law of arithmetic that could fail at an infinity is used, and the precondition is never opened.
  The idealization rewrote no operation of the kernel, so `preserves` has nothing to state.
-/
import proofs.«160785_j25520695673520_2_alg».proof.Defs
import proofs.«160785_j25520695673520_2_alg».proof.Proof.Gen.Kernel
import proofs.«160785_j25520695673520_2_alg».proof.Proof.Gen.Kernel.Skeleton
import proofs.«160785_j25520695673520_2_alg».proof.Proof.Gen.Kernel.Launch
import proofs.«160785_j25520695673520_2_alg».proof.Proof.Gen.Kernel.Points
import proofs.«160785_j25520695673520_2_alg».proof.Proof.Gen.Kernel.Frame
import proofs.«160785_j25520695673520_2_alg».proof.Proof.Gen.KernelIdeal
import proofs.«160785_j25520695673520_2_alg».proof.Proof.Gen.KernelIdeal.Skeleton
import proofs.«160785_j25520695673520_2_alg».proof.Proof.Gen.KernelIdeal.Launch
import proofs.«160785_j25520695673520_2_alg».proof.Proof.Gen.KernelIdeal.Points
import proofs.«160785_j25520695673520_2_alg».proof.Proof.Gen.KernelIdeal.Frame
import proofs.«160785_j25520695673520_2_alg».proof.Proof.Gen.ReferenceIdeal
import proofs.«160785_j25520695673520_2_alg».proof.Proof.Gen.Pre_finite_inputs
import proofs.«160785_j25520695673520_2_alg».proof.Proof.Gen.KernelIdeal.Value
import proofs.«160785_j25520695673520_2_alg».proof.Proof.RefRunPatched
import proofs.«160785_j25520695673520_2_alg».proof.Proof.RefReadPatched
import proofs.«160785_j25520695673520_2_alg».proof.Proof.KernelWhole
import proofs.«160785_j25520695673520_2_alg».proof.Proof.ReferenceValue
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- No operation of the kernel was rewritten on the way to the extended reals. -/
theorem preserves : Cert.preserves_Kernel_KernelIdeal := trivial

/-- From memories that agree on the six arguments both programs end with the result array at `Cert.PairFfn.result` of the
    arguments: the kernel block by block, the reference stage by stage. -/
theorem algebraic : Cert.algebraic_KernelIdeal_ReferenceIdeal := by
  intro m ρ m' ρ' _ hagree
  refine ⟨fun c => Cert.KernelIdeal.Whole.goal m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v14_eq, Cert.ReferenceIdeal.RefValue.result_eq]
  obtain ⟨h0, h1, h2, h3, h4, h5⟩ := hagree c
  rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
